-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S8x4096x64 .f32) (main_arg1 : FVec F S8x4096x4096 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S8x4096x64 : Shape := ⟨3, ![8, 4096, 64]⟩
abbrev S8x4096x4096 : Shape := ⟨3, ![8, 4096, 4096]⟩
abbrev S1x512x4096 : Shape := ⟨3, ![1, 512, 4096]⟩
abbrev S1x4096x64 : Shape := ⟨3, ![1, 4096, 64]⟩
abbrev S1x512x64 : Shape := ⟨3, ![1, 512, 64]⟩
abbrev S512x4096 : Shape := ⟨2, ![512, 4096]⟩
abbrev S512 : Shape := ⟨1, ![512]⟩
abbrev S512x1 : Shape := ⟨2, ![512, 1]⟩
abbrev S4096x64 : Shape := ⟨2, ![4096, 64]⟩
abbrev S512x64 : Shape := ⟨2, ![512, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S8x4096x64, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x64, .f32⟩
  | .local _ .vmem, ⟨3, _⟩ => ⟨S1x4096x64, .f32⟩
  | .local _ .vmem, ⟨4, _⟩ => ⟨S1x512x64, .f32⟩
  | .local _ .vmem, ⟨5, _⟩ => ⟨S1x512x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x4096x4096.size a
  hwx0_0 : ∀ i : grid0.Coords, EltTy.bits .f32 = 32 ∨ (Rect.block (s := S8x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x4096x64.size a
  hwx0_2 : ∀ i : grid0.Coords, EltTy.bits .f32 = 32 ∨ (Rect.block (s := S8x4096x64) S1x512x64.size (cc0_transform_2 i) (hinb0_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S_, .f32⟩
  | .hbm, ⟨3, _⟩ => ⟨S8x4096, .f32⟩
  | .hbm, ⟨4, _⟩ => ⟨S8x4096x1, .f32⟩
  | .hbm, ⟨5, _⟩ => ⟨S_, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S8x4096x4096, .f32⟩
  | .hbm, ⟨10, _⟩ => ⟨S8x4096x4096, .f32⟩
  | .hbm, ⟨11, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  reducesTo_S8x4096x4096_S8x4096_d2 : S8x4096x4096.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x4096_0_1_2 : S8x4096x1.BroadcastsInDim S8x4096x4096 (![0, 1, 2] : Fin 3 → Fin S8x4096x4096.rank)
  dot_S8x4096x4096_S8x4096x64_S8x4096x64_2_1_1_2_0_0_wf : DotDims.WF S8x4096x4096 S8x4096x64 S8x4096x64 [2] [1] [1] [2] [0] [0]

variable [Facts₀]

def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.LibDivSum.lean ====
/-
  Dividing a finite sum of products by a real number, on the extended reals — general in the index type.

  On the extended reals a quotient by a real number that is not zero is the product with its reciprocal. When the
  factors are real numbers the sums are sums of reals, and `(∑ₖ aₖ wₖ) / c = ∑ₖ (aₖ / c) · wₖ` by distributivity in the
  reals. Beside it: the coercion from the reals commutes with a finite sum, and the larger of the float 1.0 and a real
  number is a real number that is not zero (a clipped degree or count is a legitimate divisor).
-/
import Idealize.ShloMosaic.PureOps.Ideal
import Idealize.ShloMosaic.PureOps.Ideal.Laws
import Idealize.ShloMosaic.Lib.IdealHost

noncomputable section

open scoped BigOperators

namespace Cert.LibDivSum

open Idealize.ShloMosaic

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of the float 1.0 and a real number is a real number that is not zero. -/
theorem clip_real (s : ℝ) : ∃ c : ℝ, max (Ideal.ofBits .f32 0x3F800000#32) (s : EReal) = (c : EReal) ∧ c ≠ 0 := by
  refine ⟨max 1 s, ?_, ?_⟩
  · rw [Ideal.ofBits_one_f32, show (1 : EReal) = ((1 : ℝ) : EReal) by norm_cast]
    exact (Monotone.map_max (fun _ _ h => EReal.coe_le_coe_iff.mpr h)).symm
  · have : (1 : ℝ) ≤ max 1 s := le_max_left _ _
    intro h; rw [h] at this; norm_num at this

/-- Real entries, a real divisor that is not zero: dividing the sum of products is the sum of products of the
    divided weights. -/
theorem div_sum_eq {ι : Type*} [Fintype ι] (a w : ι → EReal) (c : ℝ) (hc : c ≠ 0)
    (ha : ∀ k, ∃ r : ℝ, a k = (r : EReal)) (hw : ∀ k, ∃ r : ℝ, w k = (r : EReal)) :
    Ideal.div (∑ k, a k * w k) (c : EReal) = ∑ k, Ideal.div (a k) (c : EReal) * w k := by
  choose ar har using ha
  choose wr hwr using hw
  have hl : ∑ k, a k * w k = ((∑ k, ar k * wr k : ℝ) : EReal) := by
    rw [coe_sum]
    exact Finset.sum_congr rfl fun k _ => by rw [har, hwr, EReal.coe_mul]
  have hr : ∑ k, Ideal.div (a k) (c : EReal) * w k = ((∑ k, ar k * (1 / c) * wr k : ℝ) : EReal) := by
    rw [coe_sum]
    exact Finset.sum_congr rfl fun k _ => by
      rw [Ideal.div_coe hc, har, hwr, ← EReal.coe_mul, ← EReal.coe_mul]
  rw [Ideal.div_coe hc, hl, hr, ← EReal.coe_mul, Finset.sum_mul]
  refine congrArg (fun t : ℝ => (t : EReal)) (Finset.sum_congr rfl fun k _ => ?_)
  ring

end Cert.LibDivSum

end
-- ==== Proof.Mean.lean ====
/-
  Mean aggregation over a batch of graphs, in two arrangements, and why they agree on finite inputs.

  For each of 8 graphs, `A` is a 4096 × 4096 matrix of edge weights and `x` a 4096 × 64 matrix of node features. The
  clipped degree of node `r` is `D(r) = max 1 (∑ₖ A(r,k))`. One arrangement aggregates first and scales after,
  `(∑ₖ A(r,k) · x(k,d)) / D(r)`; the other scales the weights first, `∑ₖ (A(r,k) / D(r)) · x(k,d)`.

  On the extended reals a quotient by a real number that is not zero is the product with its reciprocal. When every
  weight and feature is a real number, `D(r)` is a real number at least 1, all the sums are sums of reals, and in the
  reals `(∑ₖ aₖ wₖ) · c = ∑ₖ (aₖ · c) · wₖ` by distributivity. (With infinite entries the two arrangements can differ,
  which is why finiteness is used.)
-/
import Idealize.ShloMosaic.PureOps.Ideal
import Idealize.ShloMosaic.PureOps.Ideal.Laws
import Idealize.ShloMosaic.Lib.ValueIdx
import Idealize.ShloMosaic.Lib.IdealHost
import proofs.«127678_j5188320494244_2_alg».proof.Proof.LibDivSum

noncomputable section

open scoped BigOperators

namespace Cert.MeanAgg

open Idealize.ShloMosaic Idealize.ShloMosaic.ValueIdx Cert.LibDivSum

/-! ## The two arrangements on the batch -/

/-- The feature array's shape, 8 graphs × 4096 nodes × 64 features, and the weight array's, 8 × 4096 × 4096. -/
abbrev SX : Shape := ⟨3, ![8, 4096, 64]⟩
abbrev SA : Shape := ⟨3, ![8, 4096, 4096]⟩

/-- The clipped degree of node `r` of graph `b`. -/
def deg (A : SA.Idx → EReal) (b : Fin 8) (r : Fin 4096) : EReal :=
  max (Ideal.ofBits .f32 0x3F800000#32) (∑ k : Fin 4096, A (ix3 b r k))

/-- Aggregate, then scale: entry `(b, r, d)`. -/
def aggScaleAt (x : SX.Idx → EReal) (A : SA.Idx → EReal) (b : Fin 8) (r : Fin 4096) (d : Fin 64) : EReal :=
  Ideal.div (∑ k : Fin 4096, A (ix3 b r k) * x (ix3 b k d)) (deg A b r)

/-- Scale, then aggregate: entry `(b, r, d)`. -/
def scaleAggAt (x : SX.Idx → EReal) (A : SA.Idx → EReal) (b : Fin 8) (r : Fin 4096) (d : Fin 64) : EReal :=
  ∑ k : Fin 4096, Ideal.div (A (ix3 b r k)) (deg A b r) * x (ix3 b k d)

/-- The two arrangements as whole arrays. -/
def aggScale (x : SX.Idx → EReal) (A : SA.Idx → EReal) : SX.Idx → EReal := fun i => aggScaleAt x A (i 0) (i 1) (i 2)
def scaleAgg (x : SX.Idx → EReal) (A : SA.Idx → EReal) : SX.Idx → EReal := fun i => scaleAggAt x A (i 0) (i 1) (i 2)

theorem aggScale_apply (x : SX.Idx → EReal) (A : SA.Idx → EReal) (b : Fin 8) (r : Fin 4096) (d : Fin 64) :
    aggScale x A (ix3 b r d) = aggScaleAt x A b r d := rfl
theorem scaleAgg_apply (x : SX.Idx → EReal) (A : SA.Idx → EReal) (b : Fin 8) (r : Fin 4096) (d : Fin 64) :
    scaleAgg x A (ix3 b r d) = scaleAggAt x A b r d := rfl

/-- With real weights the clipped degree is a real number that is not zero. -/
theorem deg_real (A : SA.Idx → EReal) (hA : ∀ i, ∃ r : ℝ, A i = (r : EReal)) (b : Fin 8) (r : Fin 4096) :
    ∃ c : ℝ, deg A b r = (c : EReal) ∧ c ≠ 0 := by
  choose Ar hAr using hA
  have hs : ∑ k : Fin 4096, A (ix3 b r k) = ((∑ k : Fin 4096, Ar (ix3 b r k) : ℝ) : EReal) := by
    rw [coe_sum]
    exact Finset.sum_congr rfl fun k _ => hAr _
  unfold deg
  rw [hs]
  exact clip_real _

/-- On real inputs the two arrangements are one array. -/
theorem scaleAgg_eq_aggScale (x : SX.Idx → EReal) (A : SA.Idx → EReal)
    (hx : ∀ i, ∃ r : ℝ, x i = (r : EReal)) (hA : ∀ i, ∃ r : ℝ, A i = (r : EReal)) :
    scaleAgg x A = aggScale x A := by
  funext i
  show scaleAggAt x A (i 0) (i 1) (i 2) = aggScaleAt x A (i 0) (i 1) (i 2)
  generalize i 0 = b
  generalize i 1 = r
  generalize i 2 = d
  obtain ⟨c, hc, hc0⟩ := deg_real A hA b r
  unfold scaleAggAt aggScaleAt
  rw [hc]
  exact (div_sum_eq (fun k : Fin 4096 => A (ix3 b r k)) (fun k : Fin 4096 => x (ix3 b k d)) c hc0
    (fun k => hA _) (fun k => hx _)).symm

end Cert.MeanAgg

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Tile.lean ====
/-
  One tile of the kernel, entry by entry.

  At a grid point the kernel holds 512 rows of the adjacency matrix of one graph (a 512 × 4096 block `a`) and the whole
  feature matrix of that graph (4096 × 64, `x`). It adds up each row of `a` to the row's degree, clips the degree from
  below at 1, multiplies `a` into `x`, and divides row `p` of the product by the clipped degree of row `p`. Over the
  extended reals the changes of float format are the identity, the matrix product into a zero accumulator is the plain
  sum of products, and the row sum is the plain sum, so entry `(p, q)` of the tile is
  `(∑ₖ a(p,k) · x(k,q)) / max 1 (∑ₖ a(p,k))`.
-/
import proofs.«127678_j5188320494244_2_alg».proof.Proof.Gen.KernelIdeal.Skeleton
import proofs.«127678_j5188320494244_2_alg».proof.Proof.LibColumns
import proofs.«127678_j5188320494244_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! The product's dimension numbers: output entry `(p, q)` at contraction position `k` reads the left operand at
`(p, k)` and the right operand at `(k, q)`. -/

theorem lhs_row (i : S512x64.Idx) (k : dot_S512x4096_S4096x64_S512x64_1_0_0_1_n_n.contr.Idx) :
    (dot_S512x4096_S4096x64_S512x64_1_0_0_1_n_n.lhsIdx i k 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl

theorem lhs_col (i : S512x64.Idx) (k : dot_S512x4096_S4096x64_S512x64_1_0_0_1_n_n.contr.Idx) :
    (dot_S512x4096_S4096x64_S512x64_1_0_0_1_n_n.lhsIdx i k 1).val = (k ⟨0, by decide⟩).val :=
  dot_S512x4096_S4096x64_S512x64_1_0_0_1_n_n.lhsIdx_val_of_single rfl i k

theorem rhs_row (i : S512x64.Idx) (k : dot_S512x4096_S4096x64_S512x64_1_0_0_1_n_n.contr.Idx) :
    (dot_S512x4096_S4096x64_S512x64_1_0_0_1_n_n.rhsIdx i k 0).val = (k ⟨0, by decide⟩).val :=
  dot_S512x4096_S4096x64_S512x64_1_0_0_1_n_n.rhsIdx_val_of_single rfl i k

theorem rhs_col (i : S512x64.Idx) (k : dot_S512x4096_S4096x64_S512x64_1_0_0_1_n_n.contr.Idx) :
    (dot_S512x4096_S4096x64_S512x64_1_0_0_1_n_n.rhsIdx i k 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- The product of the tile's rows with the feature matrix, at `(p, q)`: the plain sum of products over the 4096
    neighbours (the roundings to bf16 on the way in are the identity on the extended reals). -/
theorem product_apply (a : Vec Ideal S1x512x4096 .f32) (x : Vec Ideal S1x4096x64 .f32) (p : Fin 512) (q : Fin 64) :
    matmul dot_S512x4096_S4096x64_S512x64_1_0_0_1_n_n none
        (truncf .bf16 (shapeCast S512x4096 a shapeCasts_S1x512x4096_S512x4096) bitsLt_bf16_f32)
        (truncf .bf16 (shapeCast S4096x64 x shapeCasts_S1x4096x64_S4096x64) bitsLt_bf16_f32)
        (constant (F := Ideal) S512x64 .f32 0x00000000#32) (ix2 p q)
      = ∑ k : Fin 4096, a (ix3 (0 : Fin 1) p k) * x (ix3 (0 : Fin 1) k q) := by
  refine (Cert.PlainDot.matmul_zero_apply dot_S512x4096_S4096x64_S512x64_1_0_0_1_n_n rfl rfl lhs_row lhs_col rhs_row rhs_col
    none _ _ p q).trans ?_
  refine Finset.sum_congr rfl fun k _ => ?_
  show shapeCast S512x4096 a shapeCasts_S1x512x4096_S512x4096 (ix2 p k)
      * shapeCast S4096x64 x shapeCasts_S1x4096x64_S4096x64 (ix2 k q) = _
  rw [shapeCast_1ab_ab_apply, shapeCast_1ab_ab_apply]

/-- The clipped degree of row `p` of the tile, spread over the 64 feature columns, at `(p, q)`. -/
theorem degree_apply (a : Vec Ideal S1x512x4096 .f32) (hφ : FKind.Formats .f32)
    (hacc : (0x00000000#32 : BitVec (FTy.bits .f32)) = FKind.add.neutral .f32 hφ) (p : Fin 512) (q : Fin 64) :
    broadcastTo S512x64
        (maximumf (broadcast S512x1 (FloatOps.ofBits (F := Ideal) .f32 0x3F800000#32))
          (shapeCast S512x1
            (multiReduction .add [1] S512 (shapeCast S512x4096 a shapeCasts_S1x512x4096_S512x4096) 0x00000000#32
              reduces_S512x4096_S512 hφ hacc)
            shapeCasts_S512_S512x1))
        broadcasts_S512x1_S512x64 (ix2 p q)
      = max (Ideal.ofBits .f32 0x3F800000#32) (∑ k : Fin 4096, a (ix3 (0 : Fin 1) p k)) := by
  refine (Cert.LibColumns.broadcastTo_a1_ab_apply _ broadcasts_S512x1_S512x64 p q).trans ?_
  show max (Ideal.ofBits .f32 0x3F800000#32)
      (shapeCast S512x1 (multiReduction .add [1] S512 (shapeCast S512x4096 a shapeCasts_S1x512x4096_S512x4096)
        0x00000000#32 reduces_S512x4096_S512 hφ hacc) shapeCasts_S512_S512x1 (ix2 p (0 : Fin 1))) = _
  refine congrArg (max _) ?_
  refine (Cert.LibColumns.shapeCast_a_a1_apply _ shapeCasts_S512_S512x1 p (0 : Fin 1)).trans ?_
  refine (Cert.LibColumns.rowSum_apply _ 0x00000000#32 reduces_S512x4096_S512 hφ hacc p).trans ?_
  refine Finset.sum_congr rfl fun k _ => ?_
  exact shapeCast_1ab_ab_apply a shapeCasts_S1x512x4096_S512x4096 p k

/-- Entry `(p, q)` of the tile the body stores: the product row over the clipped row degree. -/
theorem tile_apply (a : Vec Ideal S1x512x4096 .f32) (x : Vec Ideal S1x4096x64 .f32) (u : Fin 1) (p : Fin 512) (q : Fin 64) :
    k0_pay1 (F := Ideal) a x (ix3 u p q)
      = Ideal.div (∑ k : Fin 4096, a (ix3 (0 : Fin 1) p k) * x (ix3 (0 : Fin 1) k q))
          (max (Ideal.ofBits .f32 0x3F800000#32) (∑ k : Fin 4096, a (ix3 (0 : Fin 1) p k))) := by
  unfold k0_pay1
  refine (shapeCast_ab_1ab_apply _ shapeCasts_S512x64_S1x512x64 u p q).trans ?_
  refine (divf_apply _ _ (ix2 p q)).trans ?_
  rw [product_apply a x p q]
  exact congrArg (Ideal.div _) (degree_apply a _ _ p q)

end Cert.KernelIdeal.Tile

end
-- ==== Proof.Blocks.lean ====
/-
  From tiles to the whole result array.

  The grid has 8 × 8 points. Point `(g, s)` is handed rows `512·s … 512·s + 511` of graph `g`'s weight matrix and all of
  graph `g`'s features, and writes back rows `512·s … 512·s + 511` of graph `g`'s result. By the entrywise reading of a
  tile, what it writes back is the aggregate-then-scale array read through that block: entry `(p, q)` of the tile
  depends only on row `512·s + p` of the weights and column `q` of the features of graph `g`. The 64 blocks tile the
  8 × 4096 × 64 result, so after the run the result is the aggregate-then-scale array of the two arguments.
-/
import proofs.«127678_j5188320494244_2_alg».proof.Proof.Gen.KernelIdeal.Value
import proofs.«127678_j5188320494244_2_alg».proof.Proof.Tile
import proofs.«127678_j5188320494244_2_alg».proof.Proof.Mean
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- A tile cut from rows `r0 … r0 + 511` of graph `b`'s weights and from graph `b`'s features is the
    aggregate-then-scale array at rows `r0 … r0 + 511` of graph `b`. -/
theorem tile_is_block (a : Vec Ideal S1x512x4096 .f32) (x : Vec Ideal S1x4096x64 .f32)
    (X : Cert.MeanAgg.SX.Idx → EReal) (A : Cert.MeanAgg.SA.Idx → EReal) (b : Fin 8) (r0 : ℕ) (hr0 : r0 + 512 ≤ 4096)
    (ha : ∀ (p : Fin 512) (k : Fin 4096), a (ix3 (0 : Fin 1) p k) = A (ix3 b (⟨r0 + p.val, by omega⟩ : Fin 4096) k))
    (hx : ∀ (k : Fin 4096) (q : Fin 64), x (ix3 (0 : Fin 1) k q) = X (ix3 b k q))
    (y : S1x512x64.Idx) :
    k0_pay1 (F := Ideal) a x y
      = Cert.MeanAgg.aggScale X A (ix3 b (⟨r0 + (y 1).val, by have h : (y 1).val < 512 := (y 1).isLt; omega⟩ : Fin 4096)
          (⟨(y 2).val, (y 2).isLt⟩ : Fin 64)) := by
  obtain ⟨u, p, q, rfl⟩ : ∃ (u : Fin 1) (p : Fin 512) (q : Fin 64), y = ix3 u p q := ⟨y 0, y 1, y 2, eq_ix3 y⟩
  rw [Cert.KernelIdeal.Tile.tile_apply, Cert.MeanAgg.aggScale_apply]
  unfold Cert.MeanAgg.aggScaleAt Cert.MeanAgg.deg
  simp only [ha, hx]

/-- The printed index maps, decided over the 64 grid points: the weights' block moves with the result's block on the
    graph and row-block axes, the features' block with it on the graph axis only, every other block index is 0. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 7 ∧ win0_2.index t (1 : Fin 3) ≤ 7 ∧ win0_2.index t (2 : Fin 3) = 0 :=
  (by decide +kernel : ∀ t : Fin grid0.N, _)

/-- Every (graph, row block) pair is some grid point's. -/
theorem index_onto : ∀ (g : Fin 8) (s : Fin 8), ∃ t : Fin cfg0.N, win0_2.index t = ![g.val, s.val, 0] :=
  (by decide +kernel : ∀ (g : Fin 8) (s : Fin 8), ∃ t : Fin grid0.N, win0_2.index t = ![g.val, s.val, 0])

/-- What grid point `t` writes back is its block of the aggregate-then-scale array of the arguments. -/
theorem flushed_eq (c : Dev nD) (t : Fin cfg0.N) :
    (dats m 0 c).flushed 2 t
      = ((cfg0.win 2).blk t).view.read (Elt Ideal) (Cert.MeanAgg.aggScale (V m c main_arg0) (V m c main_arg1)) := by
  rw [Cert.KernelIdeal.Value.flushed2]
  unfold out0_2
  rw [View.canon_unit_zero zero_offsets]
  simp only [View.ld_unit_zero (S := S1x512x4096) zero_offsets, View.ld_unit_zero (S := S1x4096x64) zero_offsets]
  obtain ⟨e00, e01, e02, e10, e11, e12, b0, b1, e22⟩ := index_facts t
  funext j
  show k0_pay1 (iblk m c 0 t) (iblk m c 1 t) j
    = Cert.MeanAgg.aggScale (V m c main_arg0) (V m c main_arg1) (((cfg0.win 2).blk t).view.emb j)
  refine (tile_is_block (iblk m c 0 t) (iblk m c 1 t) (V m c main_arg0) (V m c main_arg1)
    (⟨win0_2.index t (0 : Fin 3), by omega⟩ : Fin 8) (win0_2.index t (1 : Fin 3) * 512) (by omega) ?_ ?_ j).trans ?_
  · intro p k
    show V m c main_arg1 (((cfg0.win 0).blk t).view.emb (ix3 (0 : Fin 1) p k)) = V m c main_arg1 _
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * p.val = win0_2.index t (1 : Fin 3) * 512 + p.val; omega
    | ⟨2, _⟩ => show win0_0.index t (2 : Fin 3) * 4096 + 1 * k.val = k.val; omega
  · intro k q
    show V m c main_arg0 (((cfg0.win 1).blk t).view.emb (ix3 (0 : Fin 1) k q)) = V m c main_arg0 _
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 4096 + 1 * k.val = k.val; omega
    | ⟨2, _⟩ => show win0_1.index t (2 : Fin 3) * 64 + 1 * q.val = q.val; omega
  · refine congrArg _ (funext fun a => Fin.ext ?_)
    match a with
    | ⟨0, _⟩ =>
      show win0_2.index t (0 : Fin 3) = win0_2.index t (0 : Fin 3) * 1 + 1 * (j 0).val
      have hj : (j 0).val < 1 := (j 0).isLt
      omega
    | ⟨1, _⟩ => show win0_2.index t (1 : Fin 3) * 512 + (j 1).val = win0_2.index t (1 : Fin 3) * 512 + 1 * (j 1).val; omega
    | ⟨2, _⟩ => show (j 2).val = win0_2.index t (2 : Fin 3) * 64 + 1 * (j 2).val; omega

/-- An index of the result array is in point `t`'s block iff each coordinate is in the block's range on its axis. -/
theorem mem_block (t : Fin cfg0.N) (i : S8x4096x64.Idx) :
    i ∈ ((cfg0.win 2).blk t).view.set ↔ ∀ a : Fin 3, win0_2.index t a * S1x512x64.size a ≤ (i a).val
      ∧ (i a).val < win0_2.index t a * S1x512x64.size a + S1x512x64.size a := by
  show i ∈ ((View.whole main_v0).slice (win0_2.rect t)).set ↔ _
  rw [View.set_slice_whole, Rect.mem_set_unit]
  exact Iff.rfl

/-- The blocks cover the result array: entry `(g, r, d)` lies in the block of graph `g`, row block `r / 512`. -/
theorem cover (i : S8x4096x64.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 64 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The result array after the run is the aggregate-then-scale array of the two arguments. -/
theorem final (c : Dev nD) :
    (dats m 0 c).arrAt 2 cfg0.N
      = Cert.MeanAgg.aggScale (m ((c : Thread nD τ).loc main_arg0)) (m ((c : Thread nD τ).loc main_arg1)) :=
  (dats m 0 c).arrAt_eq_of_cover 2 (Cert.MeanAgg.aggScale (V m c main_arg0) (V m c main_arg1))
    (fun t _ => flushed_eq m c t) cover

/-- The kernel's run, read: the result at the aggregate-then-scale array, the arguments unchanged. -/
theorem run : θ_run defs (onTc (τ := τ) (main (F := Ideal))) ⟨m, fun _ => 0, ρ⟩ fun r => ∀ c : Dev nD,
      r.2.mem ((c : Thread nD τ).loc main_v0)
        = Cert.MeanAgg.aggScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.RefMean.lean ====
/-
  The reference computes the scale-then-aggregate arrangement.

  Read one operation at a time: the row sums of the weights (the initial value 0 plus the sum over the last axis), kept
  as a trailing unit axis; the larger of the constant 1 and that sum; this clipped degree spread back over the 4096
  columns; the weights divided by it entry by entry; and the batched product with the features, which at entry
  `(b, r, d)` is the sum over `k` of the divided weight `(b, r, k)` times the feature `(b, k, d)`.
-/
import proofs.«127678_j5188320494244_2_alg».proof.Proof.Gen.ReferenceIdeal.Read
import proofs.«127678_j5188320494244_2_alg».proof.Proof.Mean
import Idealize.ShloMosaic.Lib.ValueIdx
import Idealize.ShloMosaic.PureOps.Ideal.Laws

noncomputable section

open scoped BigOperators

namespace Cert.ReferenceIdeal.RefMean

open Cert.ReferenceIdeal Cert.ReferenceIdeal.Read Idealize.ShloMosaic Idealize.ShloMosaic.ValueIdx

/-- The divisor the reference spreads over row `(b, r)` is the clipped degree of that row. -/
theorem divisor_apply (A : (⟨S8x4096x4096, .f32⟩ : BufTy).Contents (Elt Ideal)) (b : Fin 8) (r : Fin 4096) (k : Fin 4096) :
    val_main_v3 (F := Ideal) A (ix3 b r k) = Cert.MeanAgg.deg A b r := by
  have e3 : idx_main_v3 (ix3 b r k) = ix3 b r (0 : Fin 1) :=
    funext fun a => Fin.ext (by match a with | ⟨0, _⟩ => rfl | ⟨1, _⟩ => rfl | ⟨2, _⟩ => rfl)
  have e1 : idx_main_v1 (ix3 b r (0 : Fin 1)) = ix2 b r :=
    funext fun a => Fin.ext (by match a with | ⟨0, _⟩ => rfl | ⟨1, _⟩ => rfl)
  have e0 : ∀ j : Fin 4096, idx_main_v0 (ix2 b r) j = ix3 b r j := fun j =>
    funext fun a => Fin.ext (by match a with | ⟨0, _⟩ => rfl | ⟨1, _⟩ => rfl | ⟨2, _⟩ => rfl)
  rw [val_main_v3_apply, e3, val_main_v2_apply, val_main_call0_v1_apply, val_main_call0_v0_apply, val_main_cst_0_apply,
    val_main_v1_apply, e1, val_main_v0_apply, val_main_cst_apply]
  simp only [e0, Ideal.ofBits_def, Ideal.maximumf_def, Ideal.ofBits_zero_f32, zero_add]
  rfl

/-- The reference's result, as a function of the two argument arrays, is the scale-then-aggregate array. -/
theorem result_eq (x : (⟨S8x4096x64, .f32⟩ : BufTy).Contents (Elt Ideal)) (A : (⟨S8x4096x4096, .f32⟩ : BufTy).Contents (Elt Ideal)) :
    val_main_v5 (F := Ideal) x A = Cert.MeanAgg.scaleAgg x A := by
  funext i
  obtain ⟨b, r, d, rfl⟩ : ∃ (b : Fin 8) (r : Fin 4096) (d : Fin 64), i = ix3 b r d := ⟨i 0, i 1, i 2, eq_ix3 i⟩
  rw [val_main_v5_apply, Cert.MeanAgg.scaleAgg_apply]
  unfold Cert.MeanAgg.scaleAggAt
  refine Finset.sum_congr rfl fun k _ => ?_
  have el : lidx_main_v5 (ix3 b r d) k = ix3 b r k :=
    funext fun a => Fin.ext (by match a with | ⟨0, _⟩ => rfl | ⟨1, _⟩ => rfl | ⟨2, _⟩ => rfl)
  have er : ridx_main_v5 (ix3 b r d) k = ix3 b k d :=
    funext fun a => Fin.ext (by match a with | ⟨0, _⟩ => rfl | ⟨1, _⟩ => rfl | ⟨2, _⟩ => rfl)
  rw [el, er, val_main_v4_apply, divisor_apply]
  rfl

end Cert.ReferenceIdeal.RefMean

end
-- ==== Proof.Finite.lean ====
/-
  What the precondition says: every entry of both arguments is a real number.

  The precondition computes, for each argument, whether every entry's absolute value is below +∞, and takes the
  conjunction of the two answers. On the extended reals the absolute value of `x` is `max x (-x)`, which is +∞ exactly at
  the two infinities; so an entry that passes the test is a real number.
-/
import proofs.«127678_j5188320494244_2_alg».proof.Pre_finite_inputs
import proofs.«127678_j5188320494244_2_alg».proof.Proof.Gen.Pre_finite_inputs
import Idealize.ShloMosaic.Lib.ReduceAll
import Idealize.ShloMosaic.Lib.ValueIdx
import Idealize.ShloMosaic.PureOps.Ideal.Laws

noncomputable section

open scoped BigOperators

namespace Cert.Pre_finite_inputs.Finite

open Cert.Pre_finite_inputs Idealize.ShloMosaic

instance : Subsingleton S_.Idx := ⟨fun a b => funext fun d => d.elim0⟩

/-- The float pattern of +∞ is the top of the extended reals. -/
theorem ofBits_inf : Ideal.ofBits .f32 0x7F800000#32 = ⊤ := by simp [Ideal.ofBits, Ideal.ieee]

/-- An extended real whose absolute value compares below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot =>
    exfalso
    have : FloatOps.cmpf (F := Ideal) (φ := .f32) .olt (FloatOps.hostAbsf (F := Ideal) (φ := .f32) (⊥ : EReal))
        (FloatOps.ofBits (F := Ideal) .f32 0x7F800000#32) = 0#1 := by
      show BitVec.ofBool (decide (max (⊥ : EReal) (-⊥) < Ideal.ofBits .f32 0x7F800000#32)) = 0#1
      rw [ofBits_inf]; simp
    rw [this] at h; exact absurd h (by decide)
  | top =>
    exfalso
    have : FloatOps.cmpf (F := Ideal) (φ := .f32) .olt (FloatOps.hostAbsf (F := Ideal) (φ := .f32) (⊤ : EReal))
        (FloatOps.ofBits (F := Ideal) .f32 0x7F800000#32) = 0#1 := by
      show BitVec.ofBool (decide (max (⊤ : EReal) (-⊤) < Ideal.ofBits .f32 0x7F800000#32)) = 0#1
      rw [ofBits_inf]; simp
    rw [this] at h; exact absurd h (by decide)
  | coe r => exact ⟨r, rfl⟩

/-- Under the precondition every entry of the features and of the weights is a real number. -/
theorem real_entries (x : FVec Ideal S8x4096x64 .f32) (A : FVec Ideal S8x4096x4096 .f32)
    (h : fn (F := Ideal) x A = fun _ => 1#1) :
    (∀ i, ∃ r : ℝ, x i = (r : EReal)) ∧ (∀ i, ∃ r : ℝ, A i = (r : EReal)) := by
  have h0 := congrFun h ValueIdx.ix0
  dsimp only [fn] at h0
  obtain ⟨h1, h2⟩ := IntOp.andi_eq_one.1 h0
  refine ⟨fun i => ?_, fun i => ?_⟩
  · exact real_of_abs_lt _ (Host.reduce_andi_all _ _ _ _ _ h1 i)
  · exact real_of_abs_lt _ (Host.reduce_andi_all _ _ _ _ _ h2 i)

end Cert.Pre_finite_inputs.Finite

end
-- ==== Proof.lean ====
/-
  Mean aggregation over a batch of 8 graphs: a fused one-pass kernel against its two-pass definition.

  With `A` the 4096 × 4096 edge weights and `x` the 4096 × 64 node features of a graph, and
  `D(r) = max 1 (∑ₖ A(r,k))` the clipped degree of node `r`, the kernel computes, one block of 512 rows at a time,
  `(∑ₖ A(r,k) · x(k,d)) / D(r)` (it aggregates, then scales), and the reference `∑ₖ (A(r,k) / D(r)) · x(k,d)` (it scales
  the weights, then aggregates). On the extended reals the kernel's roundings to bf16 are the identity, its matrix
  product and the reference's batched product are the same sums of products, and its row sum and the reference's
  reduction are the same sums.

  The two arrangements agree when every entry is a real number, which is what the precondition says: `D(r)` is then a
  real number at least 1, a quotient by it is the product with its reciprocal, and the reciprocal moves across the
  finite sum by distributivity in the reals. The kernel does not rewrite anything when idealized, so the idealization is
  the program's own text.

  The modules: `LibDivSum` (dividing a finite sum of real products by a real number), `Mean` (the two arrangements and
  the law joining them), `Tile` (one tile of the kernel entry by entry),
  `Blocks` (the 64 tiles make up the whole result), `RefMean` (the reference is the second arrangement), `Finite` (the
  precondition makes every entry real), and the claims below.
-/
import proofs.«127678_j5188320494244_2_alg».proof.Defs
import proofs.«127678_j5188320494244_2_alg».proof.Proof.Gen.Kernel
import proofs.«127678_j5188320494244_2_alg».proof.Proof.Gen.Kernel.Skeleton
import proofs.«127678_j5188320494244_2_alg».proof.Proof.Gen.Kernel.Launch
import proofs.«127678_j5188320494244_2_alg».proof.Proof.Gen.Kernel.Points
import proofs.«127678_j5188320494244_2_alg».proof.Proof.Gen.Kernel.Frame
import proofs.«127678_j5188320494244_2_alg».proof.Proof.Gen.KernelIdeal
import proofs.«127678_j5188320494244_2_alg».proof.Proof.Gen.KernelIdeal.Skeleton
import proofs.«127678_j5188320494244_2_alg».proof.Proof.Gen.KernelIdeal.Launch
import proofs.«127678_j5188320494244_2_alg».proof.Proof.Gen.KernelIdeal.Points
import proofs.«127678_j5188320494244_2_alg».proof.Proof.Gen.KernelIdeal.Frame
import proofs.«127678_j5188320494244_2_alg».proof.Proof.Gen.ReferenceIdeal
import proofs.«127678_j5188320494244_2_alg».proof.Proof.Gen.KernelIdeal.Value
import proofs.«127678_j5188320494244_2_alg».proof.Proof.Gen.ReferenceIdeal.Run
import proofs.«127678_j5188320494244_2_alg».proof.Proof.Gen.ReferenceIdeal.Read
import proofs.«127678_j5188320494244_2_alg».proof.Proof.Gen.Pre_finite_inputs
import proofs.«127678_j5188320494244_2_alg».proof.Proof.Mean
import proofs.«127678_j5188320494244_2_alg».proof.Proof.Blocks
import proofs.«127678_j5188320494244_2_alg».proof.Proof.RefMean
import proofs.«127678_j5188320494244_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On finite inputs the kernel's result (aggregate, then scale) and the reference's (scale, then aggregate) are one
    array. -/
theorem algebraic : Cert.algebraic_KernelIdeal_ReferenceIdeal := by
  intro m ρ m' ρ' hpre hagree
  refine ⟨fun c => Cert.MeanAgg.aggScale (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hA⟩ := Cert.Pre_finite_inputs.Finite.real_entries _ _ (hpre c)
  rw [Cert.ReferenceIdeal.Read.val_main_v5_eq, Cert.ReferenceIdeal.RefMean.result_eq, (hagree c).1, (hagree c).2]
  exact Cert.MeanAgg.scaleAgg_eq_aggScale _ _ hx hA

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
